-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩
abbrev S512x128 : Shape := ⟨2, ![512, 128]⟩
abbrev S100000x1 : Shape := ⟨2, ![100000, 1]⟩

abbrev nBuf : Space → Nat
  | .hbm => 71
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S1x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S1x128, .f32⟩
  | .hbm, ⟨66, _⟩ => ⟨S100000x128, .f32⟩
  | .hbm, ⟨67, _⟩ => ⟨S_, .f32⟩
  | .hbm, ⟨68, _⟩ => ⟨S512x128, .f32⟩
  | .hbm, ⟨69, _⟩ => ⟨S100000x1, .i32⟩
  | .hbm, ⟨70, _⟩ => ⟨S512x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S512x128 : S_.BroadcastsInDim S512x128 (![] : Fin 0 → Fin S512x128.rank)
  bcast_S100000_S100000x1_0 : S100000.BroadcastsInDim S100000x1 (![0] : Fin 1 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S512x128_S100000x1_S100000x128_1_0_0_1_wf : ScatterDims.WF S512x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S_, .f32⟩
  | .hbm, ⟨85, _⟩ => ⟨S100000x128, .f32⟩
  | .hbm, ⟨86, _⟩ => ⟨S1600000x1, .i32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S512x128, .f32⟩
  | .hbm, ⟨105, _⟩ => ⟨S100000x1, .i32⟩
  | .hbm, ⟨106, _⟩ => ⟨S512x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_c_1 : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_cst : Ref sig .tc := ⟨.hbm, 65, rfl⟩
abbrev main_call2_v0 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call3_cst : Ref sig .tc := ⟨.hbm, 72, rfl⟩
abbrev main_call3_v0 : Ref sig .tc := ⟨.hbm, 73, rfl⟩
abbrev main_v45 : Ref sig .tc := ⟨.hbm, 74, rfl⟩
abbrev main_c_4 : Ref sig .tc := ⟨.hbm, 75, rfl⟩
abbrev main_v46 : Ref sig .tc := ⟨.hbm, 76, rfl⟩
abbrev main_v47 : Ref sig .tc := ⟨.hbm, 77, rfl⟩
abbrev main_c_5 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_6 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call4_cst : Ref sig .tc := ⟨.hbm, 93, rfl⟩
abbrev main_call4_v0 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_call5_cst : Ref sig .tc := ⟨.hbm, 100, rfl⟩
abbrev main_call5_v0 : Ref sig .tc := ⟨.hbm, 101, rfl⟩
abbrev main_v66 : Ref sig .tc := ⟨.hbm, 102, rfl⟩
abbrev main_cst_7 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

class Facts : Prop extends Facts₀ where

variable [Facts]
-- ==== Proof.KernelRun.lean ====
/-
  The kernel program's run with every buffer named.

  Every weakly fair execution of the program terminates, and in the final memory each buffer that outlives the program's
  three launches holds the contents the program's steps leave in it: the fold `W7` through the host stretches and the launches, from the
  launch memory. The result buffer and the arguments are read off it.
-/
import proofs.«126830_j4097398800930_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates without a fault, and every buffer that is not scoped to
    a launch ends at its value in the fold `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same, read at the result and at the arguments: the result at its value in the fold, the arguments as launched. -/
theorem run_named : θ_run defs (onTc (τ := τ) (main (F := F))) ⟨m, fun _ => 0, ρ⟩ (fun r => ∀ c : Dev nD,
      r.2.mem ((c.tc : Thread nD τ).loc main_v45) = W7 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v45 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c)⟩)
    (run_all m ρ)

end Cert.KernelIdeal.Named

end
-- ==== Proof.MlpRow.lean ====
/-
  One layer's dense stage of the graph network, on the extended reals.

  A node's row of features enters as two rows of 128 numbers, `z` (the sum of its neighbours' rows) and `h` (its own
  row). The stage is a two-layer perceptron with a rectifier after each layer:

      hidden k = max (∑ k', (z k' + h k') · W1 (k', k) + b1 k) 0
      out j    = max (∑ k,  hidden k · W2 (k, j) + b2 j) 0.

  Each node's output row depends on that node's two input rows only, so the stage applied to an array of `M` rows
  (`mlpArr`) is the row function at every row — whether the rows are handled all at once or in blocks of consecutive
  rows. The biases come as one-row matrices `[1, 128]`.
-/
import Idealize.ShloMosaic.Lib.ValueIdx
import Idealize.ShloMosaic.PureOps.Ideal

noncomputable section

open scoped BigOperators

namespace Cert.Gin

open Idealize.ShloMosaic Idealize.ShloMosaic.ValueIdx

/-- An `a × b` array of extended reals. -/
abbrev Mat (a b : ℕ) : Type := (⟨2, ![a, b]⟩ : Shape).Idx → EReal

/-- The hidden layer at unit `k`: the rectified affine image of the row `z + h`. -/
def hiddenAt (z h : Fin 128 → EReal) (W1 : Mat 128 128) (b1 : Fin 128 → EReal) (k : Fin 128) : EReal :=
  max ((∑ k' : Fin 128, (z k' + h k') * W1 (ix2 k' k)) + b1 k) 0

/-- The stage's output at feature `j`: the rectified affine image of the hidden layer. -/
def mlpRow (z h : Fin 128 → EReal) (W1 W2 : Mat 128 128) (b1 b2 : Fin 128 → EReal) (j : Fin 128) : EReal :=
  max ((∑ k : Fin 128, hiddenAt z h W1 b1 k * W2 (ix2 k j)) + b2 j) 0

/-- The stage on an array of `M` rows: entry `(p, j)` is the row function of rows `p` of `z` and of `h`. -/
def mlpArr {M : ℕ} (z h : Mat M 128) (W1 : Mat 128 128) (b1 : Mat 1 128) (W2 : Mat 128 128) (b2 : Mat 1 128) : Mat M 128 :=
  fun i => mlpRow (fun k => z (ix2 ⟨(i 0).val, idx2_lt0 i⟩ k)) (fun k => h (ix2 ⟨(i 0).val, idx2_lt0 i⟩ k)) W1 W2
    (fun k => b1 (ix2 0 k)) (fun k => b2 (ix2 0 k)) ⟨(i 1).val, idx2_lt1 i⟩

theorem mlpArr_apply {M : ℕ} (z h : Mat M 128) (W1 : Mat 128 128) (b1 : Mat 1 128) (W2 : Mat 128 128) (b2 : Mat 1 128)
    (p : Fin M) (j : Fin 128) :
    mlpArr z h W1 b1 W2 b2 (ix2 p j)
      = mlpRow (fun k => z (ix2 p k)) (fun k => h (ix2 p k)) W1 W2 (fun k => b1 (ix2 0 k)) (fun k => b2 (ix2 0 k)) j := rfl

/-- The row function only looks at its two rows: equal rows give equal outputs. -/
theorem mlpRow_congr {z z' h h' : Fin 128 → EReal} (hz : ∀ k, z k = z' k) (hh : ∀ k, h k = h' k)
    (W1 W2 : Mat 128 128) (b1 b2 : Fin 128 → EReal) (j : Fin 128) :
    mlpRow z h W1 W2 b1 b2 j = mlpRow z' h' W1 W2 b1 b2 j := by
  rw [show z = z' from funext hz, show h = h' from funext hh]

/-- Blocks of rows: the stage on a block, read at an entry `j` of the block, is the stage on the whole array at the
    entry `i` where that entry sits, as soon as the block's two rows at `j` are the array's two rows at `i`, the
    columns agree, and the weights and biases are the array's. -/
theorem mlpArr_block {M M' : ℕ} (x0 x1 : Mat M' 128) (x2 : Mat 128 128) (x3 : Mat 1 128) (x4 : Mat 128 128) (x5 : Mat 1 128)
    (A H : Mat M 128) (W1 : Mat 128 128) (B1 : Mat 1 128) (W2 : Mat 128 128) (B2 : Mat 1 128)
    (j : (⟨2, ![M', 128]⟩ : Shape).Idx) (i : (⟨2, ![M, 128]⟩ : Shape).Idx)
    (h0 : ∀ k : Fin 128, x0 (ix2 ⟨(j 0).val, idx2_lt0 j⟩ k) = A (ix2 ⟨(i 0).val, idx2_lt0 i⟩ k))
    (h1 : ∀ k : Fin 128, x1 (ix2 ⟨(j 0).val, idx2_lt0 j⟩ k) = H (ix2 ⟨(i 0).val, idx2_lt0 i⟩ k))
    (h2 : x2 = W1) (h3 : ∀ k : Fin 128, x3 (ix2 0 k) = B1 (ix2 0 k))
    (h4 : x4 = W2) (h5 : ∀ k : Fin 128, x5 (ix2 0 k) = B2 (ix2 0 k))
    (hj : (j 1).val = (i 1).val) :
    mlpArr x0 x1 x2 x3 x4 x5 j = mlpArr A H W1 B1 W2 B2 i := by
  unfold mlpArr
  subst h2 h4
  rw [show (⟨(j 1).val, idx2_lt1 j⟩ : Fin 128) = ⟨(i 1).val, idx2_lt1 i⟩ from Fin.ext hj,
    show (fun k => x3 (ix2 0 k)) = fun k => B1 (ix2 0 k) from funext h3,
    show (fun k => x5 (ix2 0 k)) = fun k => B2 (ix2 0 k) from funext h5]
  exact mlpRow_congr h0 h1 _ _ _ _ _

end Cert.Gin

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.KernelBlock.lean ====
/-
  What one grid point of each of the three launches computes, read at an entry of its block of 4000 rows.

  The body loads a block of neighbour sums, the same block of the nodes' own rows, the two 128×128 weight matrices
  and the two bias rows, and stores `max (max ((z + h)·W1 + b1) 0 · W2 + b2) 0`. On the extended reals a change of
  float format is the identity and a product into the zero accumulator is the plain sum over the contracted index, so
  entry `(q, j)` of the stored block is the row function `Cert.Gin.mlpRow` of rows `q` of the two loaded blocks.
  The three launches run the same text (the first spells one identity cast fewer).
-/
import proofs.«126830_j4097398800930_1_alg».proof.Proof.Gen.KernelIdeal.Skeleton
import proofs.«126830_j4097398800930_1_alg».proof.Proof.MlpRow
import proofs.«126830_j4097398800930_1_alg».proof.Proof.LibPlainDot
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Gin

variable [Facts]

/-- A block of 4000 rows times a 128×128 matrix, into the zero accumulator, at entry `(q, j)`: the sum over the
    contracted index, in whatever formats the operands are. -/
theorem dense_apply {φ₁ φ₂ : FTy} (x : FVec Ideal S4000x128 φ₁) (W : FVec Ideal S128x128 φ₂) (q : Fin 4000) (j : Fin 128) :
    matmul dot_S4000x128_S128x128_S4000x128_1_0_0_1_n_n none x W (constant S4000x128 .f32 0x00000000#32) (ix2 q j)
      = ∑ k : Fin 128, x (ix2 q k) * W (ix2 k j) :=
  Cert.Lib.PlainDot.matmul_zero_apply (M := 4000) (K := 128) (N := 128) none x W q j

/-- A bias row broadcast over the block's rows, at entry `(q, j)`: the bias at `j`. -/
theorem bias_apply (b : FVec Ideal S1x128 .f32) (q : Fin 4000) (j : Fin 128) :
    broadcastTo S4000x128 b broadcasts_S1x128_S4000x128 (ix2 q j) = b (ix2 0 j) :=
  broadcastTo_1b_ab_apply b _ q j

/-- The body's `0.0`, splat, at any entry: the real zero. -/
theorem zero_apply (i : S4000x128.Idx) :
    broadcast S4000x128 (Scalar.ofBits (F := Ideal) .f32 0x00000000#32) i = (0 : EReal) :=
  Ideal.ofBits_zero_f32

/-- The first launch's stored block at entry `(q, j)`. -/
theorem pay0_apply (x0 x1 : Vec Ideal S4000x128 .f32) (x2 : Vec Ideal S128x128 .f32) (x3 : Vec Ideal S1x128 .f32)
    (x4 : Vec Ideal S128x128 .f32) (x5 : Vec Ideal S1x128 .f32) (q : Fin 4000) (j : Fin 128) :
    k0_pay1 (F := Ideal) x0 x1 x2 x3 x4 x5 (ix2 q j)
      = mlpRow (fun k => x0 (ix2 q k)) (fun k => x1 (ix2 q k)) x2 x4 (fun k => x3 (ix2 0 k)) (fun k => x5 (ix2 0 k)) j := by
  unfold k0_pay1 mlpRow hiddenAt
  simp only [maximumf_apply, addf_apply, truncf_apply, dense_apply, bias_apply, zero_apply, shapeCast_self]

/-- The second launch's stored block at entry `(q, j)`. -/
theorem pay1_apply (x0 x1 : Vec Ideal S4000x128 .f32) (x2 : Vec Ideal S128x128 .f32) (x3 : Vec Ideal S1x128 .f32)
    (x4 : Vec Ideal S128x128 .f32) (x5 : Vec Ideal S1x128 .f32) (q : Fin 4000) (j : Fin 128) :
    k1_pay1 (F := Ideal) x0 x1 x2 x3 x4 x5 (ix2 q j)
      = mlpRow (fun k => x0 (ix2 q k)) (fun k => x1 (ix2 q k)) x2 x4 (fun k => x3 (ix2 0 k)) (fun k => x5 (ix2 0 k)) j := by
  unfold k1_pay1 mlpRow hiddenAt
  simp only [maximumf_apply, addf_apply, truncf_apply, dense_apply, bias_apply, zero_apply, shapeCast_self]

/-- The third launch's stored block at entry `(q, j)`. -/
theorem pay2_apply (x0 x1 : Vec Ideal S4000x128 .f32) (x2 : Vec Ideal S128x128 .f32) (x3 : Vec Ideal S1x128 .f32)
    (x4 : Vec Ideal S128x128 .f32) (x5 : Vec Ideal S1x128 .f32) (q : Fin 4000) (j : Fin 128) :
    k2_pay1 (F := Ideal) x0 x1 x2 x3 x4 x5 (ix2 q j)
      = mlpRow (fun k => x0 (ix2 q k)) (fun k => x1 (ix2 q k)) x2 x4 (fun k => x3 (ix2 0 k)) (fun k => x5 (ix2 0 k)) j := by
  unfold k2_pay1 mlpRow hiddenAt
  simp only [maximumf_apply, addf_apply, truncf_apply, dense_apply, bias_apply, zero_apply, shapeCast_self]

/-- The first launch's stored block is the stage on the loaded blocks. -/
theorem pay0_eq (x0 x1 : Vec Ideal S4000x128 .f32) (x2 : Vec Ideal S128x128 .f32) (x3 : Vec Ideal S1x128 .f32)
    (x4 : Vec Ideal S128x128 .f32) (x5 : Vec Ideal S1x128 .f32) :
    k0_pay1 (F := Ideal) x0 x1 x2 x3 x4 x5 = mlpArr (M := 4000) x0 x1 x2 x3 x4 x5 := by
  funext i
  obtain ⟨q, j, rfl⟩ : ∃ (q : Fin 4000) (j : Fin 128), i = ix2 q j := ⟨i 0, i 1, eq_ix2 i⟩
  rw [mlpArr_apply]
  exact pay0_apply x0 x1 x2 x3 x4 x5 q j

/-- The second launch's stored block is the stage on the loaded blocks. -/
theorem pay1_eq (x0 x1 : Vec Ideal S4000x128 .f32) (x2 : Vec Ideal S128x128 .f32) (x3 : Vec Ideal S1x128 .f32)
    (x4 : Vec Ideal S128x128 .f32) (x5 : Vec Ideal S1x128 .f32) :
    k1_pay1 (F := Ideal) x0 x1 x2 x3 x4 x5 = mlpArr (M := 4000) x0 x1 x2 x3 x4 x5 := by
  funext i
  obtain ⟨q, j, rfl⟩ : ∃ (q : Fin 4000) (j : Fin 128), i = ix2 q j := ⟨i 0, i 1, eq_ix2 i⟩
  rw [mlpArr_apply]
  exact pay1_apply x0 x1 x2 x3 x4 x5 q j

/-- The third launch's stored block is the stage on the loaded blocks. -/
theorem pay2_eq (x0 x1 : Vec Ideal S4000x128 .f32) (x2 : Vec Ideal S128x128 .f32) (x3 : Vec Ideal S1x128 .f32)
    (x4 : Vec Ideal S128x128 .f32) (x5 : Vec Ideal S1x128 .f32) :
    k2_pay1 (F := Ideal) x0 x1 x2 x3 x4 x5 = mlpArr (M := 4000) x0 x1 x2 x3 x4 x5 := by
  funext i
  obtain ⟨q, j, rfl⟩ : ∃ (q : Fin 4000) (j : Fin 128), i = ix2 q j := ⟨i 0, i 1, eq_ix2 i⟩
  rw [mlpArr_apply]
  exact pay2_apply x0 x1 x2 x3 x4 x5 q j

end Cert.KernelIdeal.Block

end
-- ==== Proof.KernelRegion.lean ====
/-
  Each launch's output array, as one function of the arrays the launch is entered with.

  A launch walks 25 grid points; point `t` loads rows `4000·t … 4000·t + 3999` of the neighbour sums and of the node
  features together with the whole weights and bias rows, and writes the stage's value on those rows back to the same rows of its
  output. The 25 blocks tile the 100000 rows, so after the launch the output array is the stage `Cert.Gin.mlpArr` of the
  whole input arrays. Everything is stated at the contents `V` the launch is entered with, a parameter here.
-/
import proofs.«126830_j4097398800930_1_alg».proof.Proof.Gen.KernelIdeal.Frame
import proofs.«126830_j4097398800930_1_alg».proof.Proof.KernelBlock
import Idealize.ShloMosaic.Lib.Pipeline.Value

set_option maxRecDepth 16384

noncomputable section

namespace Cert.KernelIdeal.Region

open Cert.KernelIdeal Cert.KernelIdeal.Gen Cert.KernelIdeal.Block Idealize.ShloMosaic Idealize.ShloMosaic.TcCoe
open Idealize.SL.Sem Idealize.ShloMosaic.ValueIdx Cert.Gin
open Idealize.ShloMosaic.Pipeline (Dat Cfg Window)

open Facts₀ Facts

variable (V : (c : Dev nD) → (b : Ref sig .tc) → Buf (Elt Ideal) ((c : Thread nD τ).loc b))

/-- The offsets of a whole-block access are zero on both axes. -/
theorem hz : (![0, 0] : Fin 2 → Nat) = fun _ => 0 := funext fun a => by fin_cases a <;> rfl

/-! ## Launch 0 -/

/-- The printed index maps of launch 0, decided over its 25 grid points: the two row-blocked inputs and the output sit
    at row block `t`, the weights and bias rows are whole. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The array launch 0 leaves in its output: the stage on the arrays it was entered with. -/
def G0 (c : Dev nD) : Mat 100000 128 :=
  mlpArr (M := 100000) (V c main_v13) (V c main_arg0) (V c main_arg3) (V c main_v14) (V c main_arg5) (V c main_v15)

/-- What grid point `t` of launch 0 writes back is block `t` of that array. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6 G0
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51, e60, e61⟩ := idx_facts0 t
  funext j
  refine (congrFun (pay0_eq (iblk0 V c 0 t) (iblk0 V c 1 t) (iblk0 V c 2 t) (iblk0 V c 3 t) (iblk0 V c 4 t) (iblk0 V c 5 t)) j).trans ?_
  show mlpArr (M := 4000) (iblk0 V c 0 t) (iblk0 V c 1 t) (iblk0 V c 2 t) (iblk0 V c 3 t) (iblk0 V c 4 t) (iblk0 V c 5 t) j
      = mlpArr (M := 100000) (V c main_v13) (V c main_arg0) (V c main_arg3) (V c main_v14) (V c main_arg5) (V c main_v15) (((cfg0.win 6).blk t).view.emb j)
  refine mlpArr_block (M := 100000) (M' := 4000) (iblk0 V c 0 t) (iblk0 V c 1 t) (iblk0 V c 2 t) (iblk0 V c 3 t) (iblk0 V c 4 t) (iblk0 V c 5 t)
    (V c main_v13) (V c main_arg0) (V c main_arg3) (V c main_v14) (V c main_arg5) (V c main_v15) j (((cfg0.win 6).blk t).view.emb j) ?_ ?_ ?_ ?_ ?_ ?_ ?_
  · intro k
    show V c main_v13 (((cfg0.win 0).blk t).view.emb (ix2 ⟨(j 0).val, idx2_lt0 j⟩ k)) = _
    refine congrArg (V c main_v13) (funext fun a => Fin.ext ?_)
    match a with
    | ⟨0, _⟩ => show win0_0.index t (0 : Fin 2) * 4000 + 1 * (j 0).val = win0_6.index t (0 : Fin 2) * 4000 + 1 * (j 0).val; omega
    | ⟨1, _⟩ => show win0_0.index t (1 : Fin 2) * 128 + 1 * k.val = k.val; omega
  · intro k
    show V c main_arg0 (((cfg0.win 1).blk t).view.emb (ix2 ⟨(j 0).val, idx2_lt0 j⟩ k)) = _
    refine congrArg (V c main_arg0) (funext fun a => Fin.ext ?_)
    match a with
    | ⟨0, _⟩ => show win0_1.index t (0 : Fin 2) * 4000 + 1 * (j 0).val = win0_6.index t (0 : Fin 2) * 4000 + 1 * (j 0).val; omega
    | ⟨1, _⟩ => show win0_1.index t (1 : Fin 2) * 128 + 1 * k.val = k.val; omega
  · funext y
    show V c main_arg3 (((cfg0.win 2).blk t).view.emb y) = V c main_arg3 y
    refine congrArg (V c main_arg3) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · intro k
    show V c main_v14 (((cfg0.win 3).blk t).view.emb (ix2 0 k)) = V c main_v14 (ix2 0 k)
    refine congrArg (V c main_v14) (funext fun a => Fin.ext ?_)
    match a with
    | ⟨0, _⟩ => show win0_3.index t (0 : Fin 2) * 1 + 1 * 0 = 0; omega
    | ⟨1, _⟩ => show win0_3.index t (1 : Fin 2) * 128 + 1 * k.val = k.val; omega
  · funext y
    show V c main_arg5 (((cfg0.win 4).blk t).view.emb y) = V c main_arg5 y
    refine congrArg (V c main_arg5) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · intro k
    show V c main_v15 (((cfg0.win 5).blk t).view.emb (ix2 0 k)) = V c main_v15 (ix2 0 k)
    refine congrArg (V c main_v15) (funext fun a => Fin.ext ?_)
    match a with
    | ⟨0, _⟩ => show win0_5.index t (0 : Fin 2) * 1 + 1 * 0 = 0; omega
    | ⟨1, _⟩ => show win0_5.index t (1 : Fin 2) * 128 + 1 * k.val = k.val; omega
  · show (j 1).val = win0_6.index t (1 : Fin 2) * 128 + 1 * (j 1).val
    omega

/-- An index of the output array is in point `t`'s block iff each coordinate is in the block's range on its axis. -/
theorem mem_blk0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v16).slice (win0_6.rect t)).set ↔ _
  rw [View.set_slice_whole, Rect.mem_set_unit]
  exact Iff.rfl

/-- The 25 blocks of 4000 rows tile the 100000 rows: row `r` is in block `r / 4000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, -, -, -, -, -, -, -, e60, e61⟩ := idx_facts0 ⟨(i 0).val / 4000, ht⟩
  refine ⟨⟨(i 0).val / 4000, ht⟩, flush0_6 _, ?_⟩
  rw [mem_blk0]
  intro a
  match a with
  | ⟨0, _⟩ =>
    show win0_6.index ⟨(i 0).val / 4000, ht⟩ (0 : Fin 2) * 4000 ≤ (i 0).val ∧ (i 0).val < win0_6.index ⟨(i 0).val / 4000, ht⟩ (0 : Fin 2) * 4000 + 4000
    rw [e60]
    show (i 0).val / 4000 * 4000 ≤ (i 0).val ∧ (i 0).val < (i 0).val / 4000 * 4000 + 4000
    omega
  | ⟨1, _⟩ =>
    show win0_6.index ⟨(i 0).val / 4000, ht⟩ (1 : Fin 2) * 128 ≤ (i 1).val ∧ (i 1).val < win0_6.index ⟨(i 0).val / 4000, ht⟩ (1 : Fin 2) * 128 + 128
    rw [e61]
    omega

/-- After launch 0 its output array is the stage on the arrays it was entered with. -/
theorem final0 (c : Dev nD) : (dat0 V c).arrAt 6 cfg0.N = G0 V c :=
  (dat0 V c).arrAt_eq_of_cover 6 (G0 V c) (fun t _ => flushed0_eq V c t) cover0

/-! ## Launch 1 -/

/-- The printed index maps of launch 1, decided over its 25 grid points: the two row-blocked inputs and the output sit
    at row block `t`, the weights and bias rows are whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The array launch 1 leaves in its output: the stage on the arrays it was entered with. -/
def G1 (c : Dev nD) : Mat 100000 128 :=
  mlpArr (M := 100000) (V c main_v26) (V c main_v16) (V c main_arg7) (V c main_v27) (V c main_arg9) (V c main_v28)

/-- What grid point `t` of launch 1 writes back is block `t` of that array. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6 G1
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51, e60, e61⟩ := idx_facts1 t
  funext j
  refine (congrFun (pay1_eq (iblk1 V c 0 t) (iblk1 V c 1 t) (iblk1 V c 2 t) (iblk1 V c 3 t) (iblk1 V c 4 t) (iblk1 V c 5 t)) j).trans ?_
  show mlpArr (M := 4000) (iblk1 V c 0 t) (iblk1 V c 1 t) (iblk1 V c 2 t) (iblk1 V c 3 t) (iblk1 V c 4 t) (iblk1 V c 5 t) j
      = mlpArr (M := 100000) (V c main_v26) (V c main_v16) (V c main_arg7) (V c main_v27) (V c main_arg9) (V c main_v28) (((cfg1.win 6).blk t).view.emb j)
  refine mlpArr_block (M := 100000) (M' := 4000) (iblk1 V c 0 t) (iblk1 V c 1 t) (iblk1 V c 2 t) (iblk1 V c 3 t) (iblk1 V c 4 t) (iblk1 V c 5 t)
    (V c main_v26) (V c main_v16) (V c main_arg7) (V c main_v27) (V c main_arg9) (V c main_v28) j (((cfg1.win 6).blk t).view.emb j) ?_ ?_ ?_ ?_ ?_ ?_ ?_
  · intro k
    show V c main_v26 (((cfg1.win 0).blk t).view.emb (ix2 ⟨(j 0).val, idx2_lt0 j⟩ k)) = _
    refine congrArg (V c main_v26) (funext fun a => Fin.ext ?_)
    match a with
    | ⟨0, _⟩ => show win1_0.index t (0 : Fin 2) * 4000 + 1 * (j 0).val = win1_6.index t (0 : Fin 2) * 4000 + 1 * (j 0).val; omega
    | ⟨1, _⟩ => show win1_0.index t (1 : Fin 2) * 128 + 1 * k.val = k.val; omega
  · intro k
    show V c main_v16 (((cfg1.win 1).blk t).view.emb (ix2 ⟨(j 0).val, idx2_lt0 j⟩ k)) = _
    refine congrArg (V c main_v16) (funext fun a => Fin.ext ?_)
    match a with
    | ⟨0, _⟩ => show win1_1.index t (0 : Fin 2) * 4000 + 1 * (j 0).val = win1_6.index t (0 : Fin 2) * 4000 + 1 * (j 0).val; omega
    | ⟨1, _⟩ => show win1_1.index t (1 : Fin 2) * 128 + 1 * k.val = k.val; omega
  · funext y
    show V c main_arg7 (((cfg1.win 2).blk t).view.emb y) = V c main_arg7 y
    refine congrArg (V c main_arg7) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · intro k
    show V c main_v27 (((cfg1.win 3).blk t).view.emb (ix2 0 k)) = V c main_v27 (ix2 0 k)
    refine congrArg (V c main_v27) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · funext y
    show V c main_arg9 (((cfg1.win 4).blk t).view.emb y) = V c main_arg9 y
    refine congrArg (V c main_arg9) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · intro k
    show V c main_v28 (((cfg1.win 5).blk t).view.emb (ix2 0 k)) = V c main_v28 (ix2 0 k)
    refine congrArg (V c main_v28) (funext fun a => Fin.ext ?_)
    match a with
    | ⟨0, _⟩ => show win1_5.index t (0 : Fin 2) * 1 + 1 * 0 = 0; omega
    | ⟨1, _⟩ => show win1_5.index t (1 : Fin 2) * 128 + 1 * k.val = k.val; omega
  · show (j 1).val = win1_6.index t (1 : Fin 2) * 128 + 1 * (j 1).val
    omega

/-- An index of the output array is in point `t`'s block iff each coordinate is in the block's range on its axis. -/
theorem mem_blk1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v29).slice (win1_6.rect t)).set ↔ _
  rw [View.set_slice_whole, Rect.mem_set_unit]
  exact Iff.rfl

/-- The 25 blocks of 4000 rows tile the 100000 rows: row `r` is in block `r / 4000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  have ht : (i 0).val / 4000 < cfg1.N := by rw [hN]; omega
  obtain ⟨-, -, -, -, -, -, -, -, -, -, -, -, e60, e61⟩ := idx_facts1 ⟨(i 0).val / 4000, ht⟩
  refine ⟨⟨(i 0).val / 4000, ht⟩, flush1_6 _, ?_⟩
  rw [mem_blk1]
  intro a
  match a with
  | ⟨0, _⟩ =>
    show win1_6.index ⟨(i 0).val / 4000, ht⟩ (0 : Fin 2) * 4000 ≤ (i 0).val ∧ (i 0).val < win1_6.index ⟨(i 0).val / 4000, ht⟩ (0 : Fin 2) * 4000 + 4000
    rw [e60]
    show (i 0).val / 4000 * 4000 ≤ (i 0).val ∧ (i 0).val < (i 0).val / 4000 * 4000 + 4000
    omega
  | ⟨1, _⟩ =>
    show win1_6.index ⟨(i 0).val / 4000, ht⟩ (1 : Fin 2) * 128 ≤ (i 1).val ∧ (i 1).val < win1_6.index ⟨(i 0).val / 4000, ht⟩ (1 : Fin 2) * 128 + 128
    rw [e61]
    omega

/-- After launch 1 its output array is the stage on the arrays it was entered with. -/
theorem final1 (c : Dev nD) : (dat1 V c).arrAt 6 cfg1.N = G1 V c :=
  (dat1 V c).arrAt_eq_of_cover 6 (G1 V c) (fun t _ => flushed1_eq V c t) cover1

/-! ## Launch 2 -/

/-- The printed index maps of launch 2, decided over its 25 grid points: the two row-blocked inputs and the output sit
    at row block `t`, the weights and bias rows are whole. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The array launch 2 leaves in its output: the stage on the arrays it was entered with. -/
def G2 (c : Dev nD) : Mat 100000 128 :=
  mlpArr (M := 100000) (V c main_v39) (V c main_v29) (V c main_arg11) (V c main_v40) (V c main_arg13) (V c main_v41)

/-- What grid point `t` of launch 2 writes back is block `t` of that array. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6 G2
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51, e60, e61⟩ := idx_facts2 t
  funext j
  refine (congrFun (pay2_eq (iblk2 V c 0 t) (iblk2 V c 1 t) (iblk2 V c 2 t) (iblk2 V c 3 t) (iblk2 V c 4 t) (iblk2 V c 5 t)) j).trans ?_
  show mlpArr (M := 4000) (iblk2 V c 0 t) (iblk2 V c 1 t) (iblk2 V c 2 t) (iblk2 V c 3 t) (iblk2 V c 4 t) (iblk2 V c 5 t) j
      = mlpArr (M := 100000) (V c main_v39) (V c main_v29) (V c main_arg11) (V c main_v40) (V c main_arg13) (V c main_v41) (((cfg2.win 6).blk t).view.emb j)
  refine mlpArr_block (M := 100000) (M' := 4000) (iblk2 V c 0 t) (iblk2 V c 1 t) (iblk2 V c 2 t) (iblk2 V c 3 t) (iblk2 V c 4 t) (iblk2 V c 5 t)
    (V c main_v39) (V c main_v29) (V c main_arg11) (V c main_v40) (V c main_arg13) (V c main_v41) j (((cfg2.win 6).blk t).view.emb j) ?_ ?_ ?_ ?_ ?_ ?_ ?_
  · intro k
    show V c main_v39 (((cfg2.win 0).blk t).view.emb (ix2 ⟨(j 0).val, idx2_lt0 j⟩ k)) = _
    refine congrArg (V c main_v39) (funext fun a => Fin.ext ?_)
    match a with
    | ⟨0, _⟩ => show win2_0.index t (0 : Fin 2) * 4000 + 1 * (j 0).val = win2_6.index t (0 : Fin 2) * 4000 + 1 * (j 0).val; omega
    | ⟨1, _⟩ => show win2_0.index t (1 : Fin 2) * 128 + 1 * k.val = k.val; omega
  · intro k
    show V c main_v29 (((cfg2.win 1).blk t).view.emb (ix2 ⟨(j 0).val, idx2_lt0 j⟩ k)) = _
    refine congrArg (V c main_v29) (funext fun a => Fin.ext ?_)
    match a with
    | ⟨0, _⟩ => show win2_1.index t (0 : Fin 2) * 4000 + 1 * (j 0).val = win2_6.index t (0 : Fin 2) * 4000 + 1 * (j 0).val; omega
    | ⟨1, _⟩ => show win2_1.index t (1 : Fin 2) * 128 + 1 * k.val = k.val; omega
  · funext y
    show V c main_arg11 (((cfg2.win 2).blk t).view.emb y) = V c main_arg11 y
    refine congrArg (V c main_arg11) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · intro k
    show V c main_v40 (((cfg2.win 3).blk t).view.emb (ix2 0 k)) = V c main_v40 (ix2 0 k)
    refine congrArg (V c main_v40) (funext fun a => Fin.ext ?_)
    match a with
    | ⟨0, _⟩ => show win2_3.index t (0 : Fin 2) * 1 + 1 * 0 = 0; omega
    | ⟨1, _⟩ => show win2_3.index t (1 : Fin 2) * 128 + 1 * k.val = k.val; omega
  · funext y
    show V c main_arg13 (((cfg2.win 4).blk t).view.emb y) = V c main_arg13 y
    refine congrArg (V c main_arg13) (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  · intro k
    show V c main_v41 (((cfg2.win 5).blk t).view.emb (ix2 0 k)) = V c main_v41 (ix2 0 k)
    refine congrArg (V c main_v41) (funext fun a => Fin.ext ?_)
    match a with
    | ⟨0, _⟩ => show win2_5.index t (0 : Fin 2) * 1 + 1 * 0 = 0; omega
    | ⟨1, _⟩ => show win2_5.index t (1 : Fin 2) * 128 + 1 * k.val = k.val; omega
  · show (j 1).val = win2_6.index t (1 : Fin 2) * 128 + 1 * (j 1).val
    omega

/-- An index of the output array is in point `t`'s block iff each coordinate is in the block's range on its axis. -/
theorem mem_blk2 (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v42).slice (win2_6.rect t)).set ↔ _
  rw [View.set_slice_whole, Rect.mem_set_unit]
  exact Iff.rfl

/-- The 25 blocks of 4000 rows tile the 100000 rows: row `r` is in block `r / 4000`. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 25 := N_2
  have ht : (i 0).val / 4000 < cfg2.N := by rw [hN]; omega
  obtain ⟨-, -, -, -, -, -, -, -, -, -, -, -, e60, e61⟩ := idx_facts2 ⟨(i 0).val / 4000, ht⟩
  refine ⟨⟨(i 0).val / 4000, ht⟩, flush2_6 _, ?_⟩
  rw [mem_blk2]
  intro a
  match a with
  | ⟨0, _⟩ =>
    show win2_6.index ⟨(i 0).val / 4000, ht⟩ (0 : Fin 2) * 4000 ≤ (i 0).val ∧ (i 0).val < win2_6.index ⟨(i 0).val / 4000, ht⟩ (0 : Fin 2) * 4000 + 4000
    rw [e60]
    show (i 0).val / 4000 * 4000 ≤ (i 0).val ∧ (i 0).val < (i 0).val / 4000 * 4000 + 4000
    omega
  | ⟨1, _⟩ =>
    show win2_6.index ⟨(i 0).val / 4000, ht⟩ (1 : Fin 2) * 128 ≤ (i 1).val ∧ (i 1).val < win2_6.index ⟨(i 0).val / 4000, ht⟩ (1 : Fin 2) * 128 + 128
    rw [e61]
    omega

/-- After launch 2 its output array is the stage on the arrays it was entered with. -/
theorem final2 (c : Dev nD) : (dat2 V c).arrAt 6 cfg2.N = G2 V c :=
  (dat2 V c).arrAt_eq_of_cover 6 (G2 V c) (fun t _ => flushed2_eq V c t) cover2

end Cert.KernelIdeal.Region

end
-- ==== Proof.KernelValue.lean ====
/-
  The kernel program's result, walked back to the launch memory.

  The program is four stretches of host operations around three launches. Between two launches the host gathers the
  rows of the current features along the edges' sources and adds them into the rows the edges' destinations name
  (`aggrOf`, kept as one function of the features and the two index vectors), and reshapes the next two bias vectors
  into rows (`rowOf`); after the third launch it adds the node rows into their graphs' rows (`poolOf`). A buffer that a
  stretch does not write, or that a launch does not output, is carried across unchanged; each launch's output is the
  stage on what the launch is entered with (`Cert.KernelIdeal.Region.final0/1/2`). So the result is `poolOf` of three
  layers `layerK`, each the stage on the neighbour sums of the previous layer's value and on that value.
-/
import proofs.«126830_j4097398800930_1_alg».proof.Proof.KernelRegion
import Idealize.ShloMosaic.Lib.StableHlo.Run

set_option maxRecDepth 16384

noncomputable section

namespace Cert.KernelIdeal.Walk

open Cert.KernelIdeal Cert.KernelIdeal.Gen Cert.KernelIdeal.Region Idealize.ShloMosaic Idealize.ShloMosaic.TcCoe
open Idealize.SL.Sem Idealize.ShloMosaic.StableHlo Cert.Gin

/-- Node features: 100000 rows of 128. -/
abbrev Feat : Type := FVec Ideal S100000x128 .f32
/-- The edge list: row 0 the sources, row 1 the destinations. -/
abbrev Edges : Type := IVec S2x1600000 32

/-- The edges' sources. -/
def srcOf (e : Edges) : IVec S1600000 32 :=
  shapeCast _ (extractStridedSlice S1x1600000 ![0, 0] e slices_S2x1600000_S1x1600000_0_0) shapeCasts_S1x1600000_S1600000

/-- The edges' destinations. -/
def dstOf (e : Edges) : IVec S1600000 32 :=
  shapeCast _ (extractStridedSlice S1x1600000 ![1, 0] e slices_S2x1600000_S1x1600000_1_0) shapeCasts_S1x1600000_S1600000

/-- The neighbour sums of `h` along edges with sources `s` (a negative one counted from the end) and destinations `d`. -/
@[irreducible] def aggrOf (h : Feat) (s d : IVec S1600000 32) : Feat :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 d) (Host.gather gather_S100000x128_S1600000x1_S1600000x128_1_0_n_n_0_1_1128 h (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))

/-- A bias vector reshaped into a one-row matrix. -/
def rowOf (b : FVec Ideal S128 .f32) : FVec Ideal S1x128 .f32 := shapeCast _ b shapeCasts_S128_S1x128

/-- The per-graph sums of the node features. -/
@[irreducible] def poolOf (h : Feat) (batch : IVec S100000 32) : FVec Ideal S512x128 .f32 :=
  Host.scatterAdd scatter_S512x128_S100000x1_S100000x128_1_0_0_1 (broadcastInDim S512x128 ![] bcast_S_S512x128 (constant S_ .f32 0x00000000#32)) (broadcastInDim S100000x1 ![0] bcast_S100000_S100000x1_0 batch) h

/-- One layer: the stage on the neighbour sums of `h` and on `h`. -/
def layerK (h : Feat) (e : Edges) (W1 : FVec Ideal S128x128 .f32) (b1 : FVec Ideal S128 .f32) (W2 : FVec Ideal S128x128 .f32)
    (b2 : FVec Ideal S128 .f32) : Feat :=
  mlpArr (M := 100000) (aggrOf h (srcOf e) (dstOf e)) h W1 (rowOf b1) W2 (rowOf b2)

variable (m : (ℓ : Loc nD τ sig) → Buf (Elt Ideal) ℓ) (ρ : Dev nD → PrngReg) (c : Dev nD)

/-! ## The first stretch, from the launch memory -/

theorem r1_v1 : W1 m ρ c (Proc.devRef .tc main_v1) = srcOf (m ((c : Thread nD τ).loc main_arg1)) := by
  show StableHlo.after hostOps0 (W0 m ρ c) (Proc.devRef .tc main_v1) = _
  dsimp only [hostOps0]
  after_results
  unfold srcOf
  rfl
theorem r1_v3 : W1 m ρ c (Proc.devRef .tc main_v3) = dstOf (m ((c : Thread nD τ).loc main_arg1)) := by
  show StableHlo.after hostOps0 (W0 m ρ c) (Proc.devRef .tc main_v3) = _
  dsimp only [hostOps0]
  after_results
  unfold dstOf
  rfl
theorem r1_v13 : W1 m ρ c (Proc.devRef .tc main_v13) = aggrOf (m ((c : Thread nD τ).loc main_arg0)) (srcOf (m ((c : Thread nD τ).loc main_arg1))) (dstOf (m ((c : Thread nD τ).loc main_arg1))) := by
  show StableHlo.after hostOps0 (W0 m ρ c) (Proc.devRef .tc main_v13) = _
  dsimp only [hostOps0]
  after_results_simp
  unfold aggrOf srcOf dstOf
  rfl
theorem r1_v14 : W1 m ρ c (Proc.devRef .tc main_v14) = rowOf (m ((c : Thread nD τ).loc main_arg4)) := by
  show StableHlo.after hostOps0 (W0 m ρ c) (Proc.devRef .tc main_v14) = _
  dsimp only [hostOps0]
  after_results
  unfold rowOf
  rfl
theorem r1_v15 : W1 m ρ c (Proc.devRef .tc main_v15) = rowOf (m ((c : Thread nD τ).loc main_arg6)) := by
  show StableHlo.after hostOps0 (W0 m ρ c) (Proc.devRef .tc main_v15) = _
  dsimp only [hostOps0]
  after_results
  unfold rowOf
  rfl
theorem h0_main_arg0 : W1 m ρ c (Proc.devRef .tc main_arg0) = W0 m ρ c (Proc.devRef .tc main_arg0) :=
  StableHlo.after_of_forall_not_mem (b := (Proc.devRef .tc main_arg0)) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h0_main_arg3 : W1 m ρ c (Proc.devRef .tc main_arg3) = W0 m ρ c (Proc.devRef .tc main_arg3) :=
  StableHlo.after_of_forall_not_mem (b := (Proc.devRef .tc main_arg3)) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h0_main_arg5 : W1 m ρ c (Proc.devRef .tc main_arg5) = W0 m ρ c (Proc.devRef .tc main_arg5) :=
  StableHlo.after_of_forall_not_mem (b := (Proc.devRef .tc main_arg5)) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h0_main_arg7 : W1 m ρ c (Proc.devRef .tc main_arg7) = W0 m ρ c (Proc.devRef .tc main_arg7) :=
  StableHlo.after_of_forall_not_mem (b := (Proc.devRef .tc main_arg7)) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h0_main_arg8 : W1 m ρ c (Proc.devRef .tc main_arg8) = W0 m ρ c (Proc.devRef .tc main_arg8) :=
  StableHlo.after_of_forall_not_mem (b := (Proc.devRef .tc main_arg8)) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h0_main_arg9 : W1 m ρ c (Proc.devRef .tc main_arg9) = W0 m ρ c (Proc.devRef .tc main_arg9) :=
  StableHlo.after_of_forall_not_mem (b := (Proc.devRef .tc main_arg9)) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h0_main_arg10 : W1 m ρ c (Proc.devRef .tc main_arg10) = W0 m ρ c (Proc.devRef .tc main_arg10) :=
  StableHlo.after_of_forall_not_mem (b := (Proc.devRef .tc main_arg10)) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h0_main_arg11 : W1 m ρ c (Proc.devRef .tc main_arg11) = W0 m ρ c (Proc.devRef .tc main_arg11) :=
  StableHlo.after_of_forall_not_mem (b := (Proc.devRef .tc main_arg11)) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h0_main_arg12 : W1 m ρ c (Proc.devRef .tc main_arg12) = W0 m ρ c (Proc.devRef .tc main_arg12) :=
  StableHlo.after_of_forall_not_mem (b := (Proc.devRef .tc main_arg12)) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h0_main_arg13 : W1 m ρ c (Proc.devRef .tc main_arg13) = W0 m ρ c (Proc.devRef .tc main_arg13) :=
  StableHlo.after_of_forall_not_mem (b := (Proc.devRef .tc main_arg13)) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h0_main_arg14 : W1 m ρ c (Proc.devRef .tc main_arg14) = W0 m ρ c (Proc.devRef .tc main_arg14) :=
  StableHlo.after_of_forall_not_mem (b := (Proc.devRef .tc main_arg14)) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h0_main_arg2 : W1 m ρ c (Proc.devRef .tc main_arg2) = W0 m ρ c (Proc.devRef .tc main_arg2) :=
  StableHlo.after_of_forall_not_mem (b := (Proc.devRef .tc main_arg2)) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## Across the first launch -/

/-- The first launch's output. -/
theorem r2_v16 : W2 m ρ c (Proc.devRef .tc main_v16) = G0 (V1 m ρ) c := (W2_arr m ρ c 6).trans (final0 (V1 m ρ) c)
theorem g0_main_v1 : W2 m ρ c (Proc.devRef .tc main_v1) = W1 m ρ c (Proc.devRef .tc main_v1) := W2_of_ne m ρ c main_v1 (by decide)
theorem g0_main_v3 : W2 m ρ c (Proc.devRef .tc main_v3) = W1 m ρ c (Proc.devRef .tc main_v3) := W2_of_ne m ρ c main_v3 (by decide)
theorem g0_main_arg7 : W2 m ρ c (Proc.devRef .tc main_arg7) = W1 m ρ c (Proc.devRef .tc main_arg7) := W2_of_ne m ρ c main_arg7 (by decide)
theorem g0_main_arg8 : W2 m ρ c (Proc.devRef .tc main_arg8) = W1 m ρ c (Proc.devRef .tc main_arg8) := W2_of_ne m ρ c main_arg8 (by decide)
theorem g0_main_arg9 : W2 m ρ c (Proc.devRef .tc main_arg9) = W1 m ρ c (Proc.devRef .tc main_arg9) := W2_of_ne m ρ c main_arg9 (by decide)
theorem g0_main_arg10 : W2 m ρ c (Proc.devRef .tc main_arg10) = W1 m ρ c (Proc.devRef .tc main_arg10) := W2_of_ne m ρ c main_arg10 (by decide)
theorem g0_main_arg11 : W2 m ρ c (Proc.devRef .tc main_arg11) = W1 m ρ c (Proc.devRef .tc main_arg11) := W2_of_ne m ρ c main_arg11 (by decide)
theorem g0_main_arg12 : W2 m ρ c (Proc.devRef .tc main_arg12) = W1 m ρ c (Proc.devRef .tc main_arg12) := W2_of_ne m ρ c main_arg12 (by decide)
theorem g0_main_arg13 : W2 m ρ c (Proc.devRef .tc main_arg13) = W1 m ρ c (Proc.devRef .tc main_arg13) := W2_of_ne m ρ c main_arg13 (by decide)
theorem g0_main_arg14 : W2 m ρ c (Proc.devRef .tc main_arg14) = W1 m ρ c (Proc.devRef .tc main_arg14) := W2_of_ne m ρ c main_arg14 (by decide)
theorem g0_main_arg2 : W2 m ρ c (Proc.devRef .tc main_arg2) = W1 m ρ c (Proc.devRef .tc main_arg2) := W2_of_ne m ρ c main_arg2 (by decide)

/-! ## The second stretch -/

theorem r3_v26 : W3 m ρ c (Proc.devRef .tc main_v26) = aggrOf (W2 m ρ c (Proc.devRef .tc main_v16)) (W2 m ρ c (Proc.devRef .tc main_v1)) (W2 m ρ c (Proc.devRef .tc main_v3)) := by
  show StableHlo.after hostOps1 (W2 m ρ c) (Proc.devRef .tc main_v26) = _
  dsimp only [hostOps1]
  after_results
  unfold aggrOf
  rfl
theorem r3_v27 : W3 m ρ c (Proc.devRef .tc main_v27) = rowOf (W2 m ρ c (Proc.devRef .tc main_arg8)) := by
  show StableHlo.after hostOps1 (W2 m ρ c) (Proc.devRef .tc main_v27) = _
  dsimp only [hostOps1]
  after_results
  unfold rowOf
  rfl
theorem r3_v28 : W3 m ρ c (Proc.devRef .tc main_v28) = rowOf (W2 m ρ c (Proc.devRef .tc main_arg10)) := by
  show StableHlo.after hostOps1 (W2 m ρ c) (Proc.devRef .tc main_v28) = _
  dsimp only [hostOps1]
  after_results
  unfold rowOf
  rfl
theorem h1_main_v16 : W3 m ρ c (Proc.devRef .tc main_v16) = W2 m ρ c (Proc.devRef .tc main_v16) :=
  StableHlo.after_of_forall_not_mem (b := (Proc.devRef .tc main_v16)) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h1_main_v1 : W3 m ρ c (Proc.devRef .tc main_v1) = W2 m ρ c (Proc.devRef .tc main_v1) :=
  StableHlo.after_of_forall_not_mem (b := (Proc.devRef .tc main_v1)) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h1_main_v3 : W3 m ρ c (Proc.devRef .tc main_v3) = W2 m ρ c (Proc.devRef .tc main_v3) :=
  StableHlo.after_of_forall_not_mem (b := (Proc.devRef .tc main_v3)) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h1_main_arg7 : W3 m ρ c (Proc.devRef .tc main_arg7) = W2 m ρ c (Proc.devRef .tc main_arg7) :=
  StableHlo.after_of_forall_not_mem (b := (Proc.devRef .tc main_arg7)) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h1_main_arg9 : W3 m ρ c (Proc.devRef .tc main_arg9) = W2 m ρ c (Proc.devRef .tc main_arg9) :=
  StableHlo.after_of_forall_not_mem (b := (Proc.devRef .tc main_arg9)) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h1_main_arg11 : W3 m ρ c (Proc.devRef .tc main_arg11) = W2 m ρ c (Proc.devRef .tc main_arg11) :=
  StableHlo.after_of_forall_not_mem (b := (Proc.devRef .tc main_arg11)) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h1_main_arg12 : W3 m ρ c (Proc.devRef .tc main_arg12) = W2 m ρ c (Proc.devRef .tc main_arg12) :=
  StableHlo.after_of_forall_not_mem (b := (Proc.devRef .tc main_arg12)) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h1_main_arg13 : W3 m ρ c (Proc.devRef .tc main_arg13) = W2 m ρ c (Proc.devRef .tc main_arg13) :=
  StableHlo.after_of_forall_not_mem (b := (Proc.devRef .tc main_arg13)) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h1_main_arg14 : W3 m ρ c (Proc.devRef .tc main_arg14) = W2 m ρ c (Proc.devRef .tc main_arg14) :=
  StableHlo.after_of_forall_not_mem (b := (Proc.devRef .tc main_arg14)) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h1_main_arg2 : W3 m ρ c (Proc.devRef .tc main_arg2) = W2 m ρ c (Proc.devRef .tc main_arg2) :=
  StableHlo.after_of_forall_not_mem (b := (Proc.devRef .tc main_arg2)) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## Across the second launch -/

/-- The second launch's output. -/
theorem r4_v29 : W4 m ρ c (Proc.devRef .tc main_v29) = G1 (V3 m ρ) c := (W4_arr m ρ c 6).trans (final1 (V3 m ρ) c)
theorem g1_main_v1 : W4 m ρ c (Proc.devRef .tc main_v1) = W3 m ρ c (Proc.devRef .tc main_v1) := W4_of_ne m ρ c main_v1 (by decide)
theorem g1_main_v3 : W4 m ρ c (Proc.devRef .tc main_v3) = W3 m ρ c (Proc.devRef .tc main_v3) := W4_of_ne m ρ c main_v3 (by decide)
theorem g1_main_arg11 : W4 m ρ c (Proc.devRef .tc main_arg11) = W3 m ρ c (Proc.devRef .tc main_arg11) := W4_of_ne m ρ c main_arg11 (by decide)
theorem g1_main_arg12 : W4 m ρ c (Proc.devRef .tc main_arg12) = W3 m ρ c (Proc.devRef .tc main_arg12) := W4_of_ne m ρ c main_arg12 (by decide)
theorem g1_main_arg13 : W4 m ρ c (Proc.devRef .tc main_arg13) = W3 m ρ c (Proc.devRef .tc main_arg13) := W4_of_ne m ρ c main_arg13 (by decide)
theorem g1_main_arg14 : W4 m ρ c (Proc.devRef .tc main_arg14) = W3 m ρ c (Proc.devRef .tc main_arg14) := W4_of_ne m ρ c main_arg14 (by decide)
theorem g1_main_arg2 : W4 m ρ c (Proc.devRef .tc main_arg2) = W3 m ρ c (Proc.devRef .tc main_arg2) := W4_of_ne m ρ c main_arg2 (by decide)

/-! ## The third stretch -/

theorem r5_v39 : W5 m ρ c (Proc.devRef .tc main_v39) = aggrOf (W4 m ρ c (Proc.devRef .tc main_v29)) (W4 m ρ c (Proc.devRef .tc main_v1)) (W4 m ρ c (Proc.devRef .tc main_v3)) := by
  show StableHlo.after hostOps2 (W4 m ρ c) (Proc.devRef .tc main_v39) = _
  dsimp only [hostOps2]
  after_results
  unfold aggrOf
  rfl
theorem r5_v40 : W5 m ρ c (Proc.devRef .tc main_v40) = rowOf (W4 m ρ c (Proc.devRef .tc main_arg12)) := by
  show StableHlo.after hostOps2 (W4 m ρ c) (Proc.devRef .tc main_v40) = _
  dsimp only [hostOps2]
  after_results
  unfold rowOf
  rfl
theorem r5_v41 : W5 m ρ c (Proc.devRef .tc main_v41) = rowOf (W4 m ρ c (Proc.devRef .tc main_arg14)) := by
  show StableHlo.after hostOps2 (W4 m ρ c) (Proc.devRef .tc main_v41) = _
  dsimp only [hostOps2]
  after_results
  unfold rowOf
  rfl
theorem h2_main_v29 : W5 m ρ c (Proc.devRef .tc main_v29) = W4 m ρ c (Proc.devRef .tc main_v29) :=
  StableHlo.after_of_forall_not_mem (b := (Proc.devRef .tc main_v29)) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h2_main_arg11 : W5 m ρ c (Proc.devRef .tc main_arg11) = W4 m ρ c (Proc.devRef .tc main_arg11) :=
  StableHlo.after_of_forall_not_mem (b := (Proc.devRef .tc main_arg11)) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h2_main_arg13 : W5 m ρ c (Proc.devRef .tc main_arg13) = W4 m ρ c (Proc.devRef .tc main_arg13) :=
  StableHlo.after_of_forall_not_mem (b := (Proc.devRef .tc main_arg13)) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem h2_main_arg2 : W5 m ρ c (Proc.devRef .tc main_arg2) = W4 m ρ c (Proc.devRef .tc main_arg2) :=
  StableHlo.after_of_forall_not_mem (b := (Proc.devRef .tc main_arg2)) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## Across the third launch, and the last stretch -/

/-- The third launch's output. -/
theorem r6_v42 : W6 m ρ c (Proc.devRef .tc main_v42) = G2 (V5 m ρ) c := (W6_arr m ρ c 6).trans (final2 (V5 m ρ) c)
theorem g2_main_arg2 : W6 m ρ c (Proc.devRef .tc main_arg2) = W5 m ρ c (Proc.devRef .tc main_arg2) := W6_of_ne m ρ c main_arg2 (by decide)
theorem r7_v45 : W7 m ρ c (Proc.devRef .tc main_v45) = poolOf (W6 m ρ c (Proc.devRef .tc main_v42)) (W6 m ρ c (Proc.devRef .tc main_arg2)) := by
  show StableHlo.after hostOps3 (W6 m ρ c) (Proc.devRef .tc main_v45) = _
  dsimp only [hostOps3]
  after_results
  unfold poolOf
  rfl

/-! ## The three layers and the result -/

/-- The first launch's output is the first layer, of the input features. -/
theorem layer1 : G0 (V1 m ρ) c = layerK (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  unfold G0 layerK
  show mlpArr (M := 100000) (W1 m ρ c (Proc.devRef .tc main_v13)) (W1 m ρ c (Proc.devRef .tc main_arg0)) (W1 m ρ c (Proc.devRef .tc main_arg3)) (W1 m ρ c (Proc.devRef .tc main_v14)) (W1 m ρ c (Proc.devRef .tc main_arg5)) (W1 m ρ c (Proc.devRef .tc main_v15)) = _
  rw [r1_v13, h0_main_arg0, h0_main_arg3, r1_v14, h0_main_arg5, r1_v15]

/-- The second launch's output is the second layer, of the first launch's output. -/
theorem layer2 : G1 (V3 m ρ) c = layerK (G0 (V1 m ρ) c) (m ((c : Thread nD τ).loc main_arg1)) (m ((c : Thread nD τ).loc main_arg7)) (m ((c : Thread nD τ).loc main_arg8)) (m ((c : Thread nD τ).loc main_arg9)) (m ((c : Thread nD τ).loc main_arg10)) := by
  unfold G1 layerK
  show mlpArr (M := 100000) (W3 m ρ c (Proc.devRef .tc main_v26)) (W3 m ρ c (Proc.devRef .tc main_v16)) (W3 m ρ c (Proc.devRef .tc main_arg7)) (W3 m ρ c (Proc.devRef .tc main_v27)) (W3 m ρ c (Proc.devRef .tc main_arg9)) (W3 m ρ c (Proc.devRef .tc main_v28)) = _
  rw [r3_v26, h1_main_v16, r2_v16, g0_main_v1, r1_v1, g0_main_v3, r1_v3,
    h1_main_arg7, g0_main_arg7, h0_main_arg7, r3_v27, g0_main_arg8, h0_main_arg8,
    h1_main_arg9, g0_main_arg9, h0_main_arg9, r3_v28, g0_main_arg10, h0_main_arg10]

/-- The third launch's output is the third layer, of the second launch's output. -/
theorem layer3 : G2 (V5 m ρ) c = layerK (G1 (V3 m ρ) c) (m ((c : Thread nD τ).loc main_arg1)) (m ((c : Thread nD τ).loc main_arg11)) (m ((c : Thread nD τ).loc main_arg12)) (m ((c : Thread nD τ).loc main_arg13)) (m ((c : Thread nD τ).loc main_arg14)) := by
  unfold G2 layerK
  show mlpArr (M := 100000) (W5 m ρ c (Proc.devRef .tc main_v39)) (W5 m ρ c (Proc.devRef .tc main_v29)) (W5 m ρ c (Proc.devRef .tc main_arg11)) (W5 m ρ c (Proc.devRef .tc main_v40)) (W5 m ρ c (Proc.devRef .tc main_arg13)) (W5 m ρ c (Proc.devRef .tc main_v41)) = _
  rw [r5_v39, h2_main_v29, r4_v29, g1_main_v1, h1_main_v1, g0_main_v1, r1_v1, g1_main_v3, h1_main_v3, g0_main_v3, r1_v3,
    h2_main_arg11, g1_main_arg11, h1_main_arg11, g0_main_arg11, h0_main_arg11, r5_v40, g1_main_arg12, h1_main_arg12, g0_main_arg12, h0_main_arg12,
    h2_main_arg13, g1_main_arg13, h1_main_arg13, g0_main_arg13, h0_main_arg13, r5_v41, g1_main_arg14, h1_main_arg14, g0_main_arg14, h0_main_arg14]

/-- The program's result, from the launch memory: the pooling of three layers applied in turn. -/
theorem result_eq : W7 m ρ c (Proc.devRef .tc main_v45)
    = poolOf (layerK (layerK (layerK (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
          (m ((c : Thread nD τ).loc main_arg1)) (m ((c : Thread nD τ).loc main_arg7)) (m ((c : Thread nD τ).loc main_arg8)) (m ((c : Thread nD τ).loc main_arg9)) (m ((c : Thread nD τ).loc main_arg10)))
        (m ((c : Thread nD τ).loc main_arg1)) (m ((c : Thread nD τ).loc main_arg11)) (m ((c : Thread nD τ).loc main_arg12)) (m ((c : Thread nD τ).loc main_arg13)) (m ((c : Thread nD τ).loc main_arg14))) (m ((c : Thread nD τ).loc main_arg2)) := by
  rw [r7_v45, r6_v42, layer3, layer2, layer1, g2_main_arg2, h2_main_arg2, g1_main_arg2, h1_main_arg2, g0_main_arg2, h0_main_arg2]

end Cert.KernelIdeal.Walk

end
-- ==== Proof.RefLayer.lean ====
/-
  The reference as three layers and a pooling.

  One layer of the reference, from the node features `h` and the edge list `e`:
  * `aggr h e`: every edge `(s, d)` adds row `s` of `h` (a negative `s` counted from the end) into row `d` of an
    all-zero array — the sum of each node's neighbours' rows. It is kept as one function of `h` and `e`: both
    programs apply the same host operations here, and nothing below opens it;
  * `dense x W b`: `max (x·W + b) 0`, row by row;
  * `layer h e W1 b1 W2 b2 = dense (dense (aggr h e + h) W1 b1) W2 b2`.
  `pool h batch` adds row `n` of `h` into row `batch n` of an all-zero 512-row array. A layer read entry by entry is the
  row function of the neighbour sums and the features, `Cert.Gin.mlpArr` with the biases as one-row matrices
  (`layer_eq`).
-/
import proofs.«126830_j4097398800930_1_alg».proof.Proof.Gen.ReferenceIdeal
import proofs.«126830_j4097398800930_1_alg».proof.Proof.MlpRow
import proofs.«126830_j4097398800930_1_alg».proof.Proof.LibPlainDot
import Idealize.ShloMosaic.Lib.ValueLayout
import Idealize.ShloMosaic.Lib.Pipeline.Value
import Idealize.ShloMosaic.PureOps.Ideal.Laws

noncomputable section

open scoped BigOperators

namespace Cert.ReferenceIdeal.Layers

open Cert.ReferenceIdeal Idealize.ShloMosaic Idealize.ShloMosaic.TcCoe Idealize.SL.Sem Idealize.ShloMosaic.ValueIdx Cert.Gin

variable [Facts]
open Facts₀ Facts

/-- Node features: 100000 rows of 128. -/
abbrev Feat : Type := FVec Ideal S100000x128 .f32
/-- The edge list: row 0 the sources, row 1 the destinations. -/
abbrev Edges : Type := IVec S2x1600000 32

/-- The all-zero feature array. -/
def zeros : Feat := broadcastInDim S100000x128 ![] bcast_S_S100000x128 (constant S_ .f32 0x00000000#32)

/-- The edges' sources. -/
def src (e : Edges) : IVec S1600000 32 :=
  shapeCast _ (extractStridedSlice S1x1600000 ![0, 0] e slices_S2x1600000_S1x1600000_0_0) shapeCasts_S1x1600000_S1600000

/-- The sources as gather indices, a negative one counted from the end. -/
def srcIdx (e : Edges) : IVec S1600000x1 32 :=
  broadcastInDim S1600000x1 ![0] bcast_S1600000_S1600000x1_0 (select (cmpi .slt (src e) (broadcastInDim S1600000 ![] bcast_S_S1600000 (constantI S_ 32 0#32))) (addi (src e) (broadcastInDim S1600000 ![] bcast_S_S1600000 (constantI S_ 32 100000#32))) (src e))

/-- The destinations as scatter indices. -/
def dstIdx (e : Edges) : IVec S1600000x1 32 :=
  broadcastInDim S1600000x1 ![0] bcast_S1600000_S1600000x1_0 (shapeCast _ (extractStridedSlice S1x1600000 ![1, 0] e slices_S2x1600000_S1x1600000_1_0) shapeCasts_S1x1600000_S1600000)

/-- The neighbour sums. -/
@[irreducible] def aggr (h : Feat) (e : Edges) : Feat :=
  Host.scatterAdd scatter_S100000x128_S1600000x1_S1600000x128_1_0_0_1 zeros (dstIdx e) (Host.gather gather_S100000x128_S1600000x1_S1600000x128_1_0_n_n_0_1_1128 h (srcIdx e))

/-- A bias vector repeated on every row. -/
def bias (b : FVec Ideal S128 .f32) : Feat :=
  broadcastInDim S100000x128 ![0, 1] bcast_S1x128_S100000x128_0_1 (broadcastInDim S1x128 ![1] bcast_S128_S1x128_1 b)

/-- One rectified affine layer. -/
def dense (x : Feat) (W : FVec Ideal S128x128 .f32) (b : FVec Ideal S128 .f32) : Feat :=
  maximumf (addf (Host.dotGeneral dot_S100000x128_S128x128_S100000x128_1_0_0_1_n_n none x W) (bias b)) zeros

/-- One layer of the network. -/
def layer (h : Feat) (e : Edges) (W1 : FVec Ideal S128x128 .f32) (b1 : FVec Ideal S128 .f32) (W2 : FVec Ideal S128x128 .f32)
    (b2 : FVec Ideal S128 .f32) : Feat :=
  dense (dense (addf (aggr h e) h) W1 b1) W2 b2

/-- The per-graph sums of the node features. -/
@[irreducible] def pool (h : Feat) (batch : IVec S100000 32) : FVec Ideal S512x128 .f32 :=
  Host.scatterAdd scatter_S512x128_S100000x1_S100000x128_1_0_0_1 (broadcastInDim S512x128 ![] bcast_S_S512x128 (constant S_ .f32 0x00000000#32)) (broadcastInDim S100000x1 ![0] bcast_S100000_S100000x1_0 batch) h

/-! ## A layer read entry by entry -/

/-- The all-zero array at an entry. -/
theorem zeros_apply (i : S100000x128.Idx) : zeros i = (0 : EReal) := by
  unfold zeros
  rw [broadcastInDim_apply ![] bcast_S_S100000x128 _ i ix0 (fun a => a.elim0), constant_apply]
  exact Ideal.ofBits_zero_f32

/-- The repeated bias at entry `(p, j)`. -/
theorem bias_apply (b : FVec Ideal S128 .f32) (p : Fin 100000) (j : Fin 128) : bias b (ix2 p j) = b (ix1 j) := by
  unfold bias
  rw [broadcastInDim_apply ![0, 1] bcast_S1x128_S100000x128_0_1 _ (ix2 p j) (ix2 (0 : Fin 1) j) (fun a => by
        match a with
        | ⟨0, _⟩ => rfl
        | ⟨1, _⟩ => rfl),
    broadcastInDim_apply ![1] bcast_S128_S1x128_1 b (ix2 (0 : Fin 1) j) (ix1 j) (fun a => by
        match a with
        | ⟨0, _⟩ => rfl)]

/-- A rectified affine layer at entry `(p, j)`. -/
theorem dense_apply (x : Feat) (W : FVec Ideal S128x128 .f32) (b : FVec Ideal S128 .f32) (p : Fin 100000) (j : Fin 128) :
    dense x W b (ix2 p j) = max ((∑ k : Fin 128, x (ix2 p k) * W (ix2 k j)) + b (ix1 j)) 0 := by
  unfold dense
  rw [maximumf_apply, addf_apply, zeros_apply, bias_apply]
  exact congrArg (fun s => max (s + b (ix1 j)) 0)
    (Cert.Lib.PlainDot.dotGeneral_apply (M := 100000) (K := 128) (N := 128) none _ x W p j)

/-- A layer at entry `(p, j)`: the row function of row `p` of the neighbour sums and of the features. -/
theorem layer_apply (h : Feat) (e : Edges) (W1 : FVec Ideal S128x128 .f32) (b1 : FVec Ideal S128 .f32)
    (W2 : FVec Ideal S128x128 .f32) (b2 : FVec Ideal S128 .f32) (p : Fin 100000) (j : Fin 128) :
    layer h e W1 b1 W2 b2 (ix2 p j)
      = mlpRow (fun k => aggr h e (ix2 p k)) (fun k => h (ix2 p k)) W1 W2 (fun k => b1 (ix1 k)) (fun k => b2 (ix1 k)) j := by
  unfold layer mlpRow hiddenAt
  rw [dense_apply]
  refine congrArg (fun s => max (s + b2 (ix1 j)) 0) (Finset.sum_congr rfl fun k _ => ?_)
  rw [dense_apply]
  refine congrArg (fun s => max (s + b1 (ix1 k)) 0 * W2 (ix2 k j)) (Finset.sum_congr rfl fun k' _ => ?_)
  rw [addf_apply]

/-- A bias vector as a one-row matrix. -/
def asRow (b : FVec Ideal S128 .f32) : Mat 1 128 := fun i => b (ix1 ⟨(i 1).val, idx2_lt1 i⟩)

theorem asRow_apply (b : FVec Ideal S128 .f32) (k : Fin 128) : asRow b (ix2 0 k) = b (ix1 k) := rfl

/-- A layer is the row function of the neighbour sums and the features, at every row. -/
theorem layer_eq (h : Feat) (e : Edges) (W1 : FVec Ideal S128x128 .f32) (b1 : FVec Ideal S128 .f32) (W2 : FVec Ideal S128x128 .f32)
    (b2 : FVec Ideal S128 .f32) :
    layer h e W1 b1 W2 b2 = mlpArr (M := 100000) (aggr h e) h W1 (asRow b1) W2 (asRow b2) := by
  funext i
  obtain ⟨p, j, rfl⟩ : ∃ (p : Fin 100000) (j : Fin 128), i = ix2 p j := ⟨i 0, i 1, eq_ix2 i⟩
  rw [mlpArr_apply, layer_apply]
  simp only [asRow_apply]

end Cert.ReferenceIdeal.Layers

end
-- ==== Proof.RefResult.lean ====
/-
  The reference's result is the pooling of three layers applied in turn.

  The reference's run ends with its result at one composed term of the arguments. Read one operation at a time, the
  first 32 operations are `layer` of the input features; the next 31 are `layer` of that value, in which the value
  itself is never opened (it enters twice: once gathered along the edges, once added to the neighbour sums); the next
  31 likewise; the last three are `pool`. Each step only unfolds names: the operations of a layer are, literally,
  the host operations `Cert.ReferenceIdeal.Layers.layer` is made of.
-/
import proofs.«126830_j4097398800930_1_alg».proof.Proof.Gen.ReferenceIdeal.Read
import proofs.«126830_j4097398800930_1_alg».proof.Proof.RefLayer

noncomputable section

namespace Cert.ReferenceIdeal.Layers

open Cert.ReferenceIdeal Cert.ReferenceIdeal.Read Idealize.ShloMosaic Idealize.ShloMosaic.TcCoe Idealize.SL.Sem

variable [Facts]
open Facts₀ Facts

/-- Operations 1–32: the first layer, of the input features. -/
theorem stage1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v24 (F := Ideal) x0 x1 x3 x4 x5 x6 = layer x0 x1 x3 x4 x5 x6 := by
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_call1_v0 val_main_call1_cst val_main_call0_v0 val_main_call0_cst val_main_cst val_main_c_0 val_main_c
    layer dense aggr bias zeros srcIdx dstIdx src
  rfl

/-- Operations 33–63: the second layer, of the first layer's value. -/
theorem stage2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v45 (F := Ideal) x0 x1 x3 x4 x5 x6 x7 x8 x9 x10 = layer (val_main_v24 (F := Ideal) x0 x1 x3 x4 x5 x6) x1 x7 x8 x9 x10 := by
  unfold val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v3 val_main_v2 val_main_v1 val_main_v0 val_main_call3_v0 val_main_call3_cst val_main_call2_v0 val_main_call2_cst val_main_cst_3 val_main_c_2 val_main_c_1
    layer dense aggr bias zeros srcIdx dstIdx src
  rfl

/-- Operations 64–94: the third layer, of the second layer's value. -/
theorem stage3 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v66 (F := Ideal) x0 x1 x3 x4 x5 x6 x7 x8 x9 x10 x11 x12 x13 x14 = layer (val_main_v45 (F := Ideal) x0 x1 x3 x4 x5 x6 x7 x8 x9 x10) x1 x11 x12 x13 x14 := by
  unfold val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v3 val_main_v2 val_main_v1 val_main_v0 val_main_call5_v0 val_main_call5_cst val_main_call4_v0 val_main_call4_cst val_main_cst_6 val_main_c_5 val_main_c_4
    layer dense aggr bias zeros srcIdx dstIdx src
  rfl

/-- The last three operations: the pooling of the third layer's value. -/
theorem stage4 (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v69 (F := Ideal) x0 x1 x2 x3 x4 x5 x6 x7 x8 x9 x10 x11 x12 x13 x14 = pool (val_main_v66 (F := Ideal) x0 x1 x3 x4 x5 x6 x7 x8 x9 x10 x11 x12 x13 x14) x2 := by
  unfold val_main_v69 val_main_v68 val_main_v67 val_main_cst_7 pool
  rfl

/-- The reference's result: three layers, then the pooling. -/
theorem result_eq (m : (ℓ : Loc nD τ sig) → Buf (Elt Ideal) ℓ) (c : Dev nD) :
    Cert.ReferenceIdeal.Value.res_main_v69 (F := Ideal) m c
      = pool (layer (layer (layer (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
            (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)))
          (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg2)) := by
  rw [val_main_v69_eq, stage4, stage3, stage2, stage1]

end Cert.ReferenceIdeal.Layers

end
-- ==== Proof.Bridge.lean ====
/-
  The two programs' layers and poolings are the same functions.

  Both programs gather and scatter-add along the edges with the same host operations, each over its own copy of the same
  dimension records, so the neighbour sums `aggrOf` / `aggr` and the poolings `poolOf` / `pool` agree by unfolding names.
  The dense stage reads a bias only through its one row: the kernel program reshapes the bias vector into a row, the
  reference repeats it on every row, and both rows hold the vector's entries. So a layer of the kernel program
  (`layerK`: the stage on the neighbour sums and the features, as the launches compute it block by block) is the
  reference's layer (`layer`: the same stage as host operations on whole arrays).
-/
import proofs.«126830_j4097398800930_1_alg».proof.Proof.KernelValue
import proofs.«126830_j4097398800930_1_alg».proof.Proof.RefResult

noncomputable section

namespace Cert.Bridge

open Idealize.ShloMosaic Idealize.ShloMosaic.ValueIdx Cert.Gin

/-- The two programs' records of the edge scatter-add are one record. -/
theorem scatter_eq : Cert.KernelIdeal.scatter_S100000x128_S1600000x1_S1600000x128_1_0_0_1 = Cert.ReferenceIdeal.scatter_S100000x128_S1600000x1_S1600000x128_1_0_0_1 := rfl
/-- The two programs' records of the edge gather are one record. -/
theorem gather_eq : Cert.KernelIdeal.gather_S100000x128_S1600000x1_S1600000x128_1_0_n_n_0_1_1128 = Cert.ReferenceIdeal.gather_S100000x128_S1600000x1_S1600000x128_1_0_n_n_0_1_1128 := rfl
/-- The two programs' records of the pooling scatter-add are one record. -/
theorem scatter_pool_eq : Cert.KernelIdeal.scatter_S512x128_S100000x1_S100000x128_1_0_0_1 = Cert.ReferenceIdeal.scatter_S512x128_S100000x1_S100000x128_1_0_0_1 := rfl

/-- The neighbour sums agree. -/
theorem aggr_eq (h : Cert.KernelIdeal.Walk.Feat) (e : Cert.KernelIdeal.Walk.Edges) :
    Cert.KernelIdeal.Walk.aggrOf h (Cert.KernelIdeal.Walk.srcOf e) (Cert.KernelIdeal.Walk.dstOf e) = Cert.ReferenceIdeal.Layers.aggr h e := by
  unfold Cert.KernelIdeal.Walk.aggrOf Cert.KernelIdeal.Walk.srcOf Cert.KernelIdeal.Walk.dstOf Cert.ReferenceIdeal.Layers.aggr Cert.ReferenceIdeal.Layers.zeros Cert.ReferenceIdeal.Layers.srcIdx Cert.ReferenceIdeal.Layers.dstIdx Cert.ReferenceIdeal.Layers.src
  rw [scatter_eq, gather_eq]

/-- The poolings agree. -/
theorem pool_eq (h : Cert.KernelIdeal.Walk.Feat) (batch : IVec Cert.KernelIdeal.S100000 32) : Cert.KernelIdeal.Walk.poolOf h batch = Cert.ReferenceIdeal.Layers.pool h batch := by
  unfold Cert.KernelIdeal.Walk.poolOf Cert.ReferenceIdeal.Layers.pool
  rw [scatter_pool_eq]

/-- A bias reshaped into a row and a bias repeated on a row hold the same entries. -/
theorem row_eq (b : FVec Ideal Cert.KernelIdeal.S128 .f32) (k : Fin 128) :
    Cert.KernelIdeal.Walk.rowOf b (ix2 0 k) = Cert.ReferenceIdeal.Layers.asRow b (ix2 0 k) := by
  rw [Cert.ReferenceIdeal.Layers.asRow_apply]
  unfold Cert.KernelIdeal.Walk.rowOf
  exact shapeCast_a_1a_apply b _ 0 k

/-- The kernel program's layer is the reference's layer. -/
theorem layer_eq (h : Cert.KernelIdeal.Walk.Feat) (e : Cert.KernelIdeal.Walk.Edges) (W1 : FVec Ideal Cert.KernelIdeal.S128x128 .f32) (b1 : FVec Ideal Cert.KernelIdeal.S128 .f32)
    (W2 : FVec Ideal Cert.KernelIdeal.S128x128 .f32) (b2 : FVec Ideal Cert.KernelIdeal.S128 .f32) :
    Cert.KernelIdeal.Walk.layerK h e W1 b1 W2 b2 = Cert.ReferenceIdeal.Layers.layer h e W1 b1 W2 b2 := by
  rw [Cert.ReferenceIdeal.Layers.layer_eq]
  unfold Cert.KernelIdeal.Walk.layerK
  rw [aggr_eq]
  funext i
  exact mlpArr_block (M := 100000) (M' := 100000) _ _ _ _ _ _ _ _ _ _ _ _ i i (fun _ => rfl) (fun _ => rfl) rfl (row_eq b1) rfl
    (row_eq b2) rfl

end Cert.Bridge

end
-- ==== Proof.lean ====
/-
  The certificate of a three-layer graph network: the Pallas program against its jnp reference.

  Each layer sums, for every node, the feature rows of its neighbours (a gather along the edges' sources and a
  scatter-add into the edges' destinations, done by the same host operations in both programs), adds the node's own
  row, and applies a two-layer perceptron with a rectifier after each layer; the network's value is the sum of the node
  rows of each graph. The reference applies the perceptron to all 100000 rows at once. The Pallas program applies it in
  a launch of 25 grid points, each on 4000 consecutive rows, with the matrix operands cast to bf16.

  At the ideal instance a float is an extended real, a cast is the identity and a matrix product is the sum over the
  contracted index, so a grid point's block is the perceptron's value on its 4000 rows, row by row; the 25 blocks tile
  the rows; and each launch's output is the perceptron of the whole arrays — the reference's layer. Nothing depends on
  the inputs being finite: the two sides are the same sums of the same products in the same order.

  The frames of the two kernel programs and the reference's run are generated; the idealization rewrote nothing, so
  `preserves` is `True`.
-/
import proofs.«126830_j4097398800930_1_alg».proof.Defs
import proofs.«126830_j4097398800930_1_alg».proof.Proof.Gen.Kernel
import proofs.«126830_j4097398800930_1_alg».proof.Proof.Gen.Kernel.Skeleton
import proofs.«126830_j4097398800930_1_alg».proof.Proof.Gen.Kernel.Launch
import proofs.«126830_j4097398800930_1_alg».proof.Proof.Gen.Kernel.Points
import proofs.«126830_j4097398800930_1_alg».proof.Proof.Gen.Kernel.Frame
import proofs.«126830_j4097398800930_1_alg».proof.Proof.Gen.KernelIdeal
import proofs.«126830_j4097398800930_1_alg».proof.Proof.Gen.KernelIdeal.Skeleton
import proofs.«126830_j4097398800930_1_alg».proof.Proof.Gen.KernelIdeal.Launch
import proofs.«126830_j4097398800930_1_alg».proof.Proof.Gen.KernelIdeal.Points
import proofs.«126830_j4097398800930_1_alg».proof.Proof.Gen.KernelIdeal.Frame
import proofs.«126830_j4097398800930_1_alg».proof.Proof.Gen.ReferenceIdeal
import proofs.«126830_j4097398800930_1_alg».proof.Proof.Gen.Pre_finite_inputs
import proofs.«126830_j4097398800930_1_alg».proof.Proof.Gen.ReferenceIdeal.Run
import proofs.«126830_j4097398800930_1_alg».proof.Proof.Gen.ReferenceIdeal.Read
import proofs.«126830_j4097398800930_1_alg».proof.Proof.KernelRun
import proofs.«126830_j4097398800930_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.Gen.frame m ρ

/-- The idealized program runs and leaves its arguments as launched. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the pooling of three layers of the input
    features: the kernel program by its run walked back through its launches, the reference by its run read one
    operation at a time; and the two programs' layers and poolings are the same functions. -/
theorem algebraic : Cert.algebraic_KernelIdeal_ReferenceIdeal := by
  intro m ρ m' ρ' _ hagree
  refine ⟨fun c => Cert.KernelIdeal.Gen.W7 m ρ c (Proc.devRef .tc Cert.KernelIdeal.main_v45), Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  show _ = Cert.KernelIdeal.Gen.W7 m ρ c (Proc.devRef .tc Cert.KernelIdeal.main_v45)
  rw [Cert.ReferenceIdeal.Layers.result_eq, Cert.KernelIdeal.Walk.result_eq, e0, e1, e2, e3, e4, e5, e6, e7, e8, e9, e10, e11, e12,
    e13, e14, Cert.Bridge.pool_eq, Cert.Bridge.layer_eq, Cert.Bridge.layer_eq, Cert.Bridge.layer_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
